-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S1000000 : Shape := ⟨1, ![1000000]⟩
abbrev S2048 : Shape := ⟨1, ![2048]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  main_v18

def fn {F : FTy → Type} [FloatOps F] (main_arg0 : FVec F S100000x64 .f32) (main_arg1 : FVec F S50000x64 .f32) (main_arg2 : IVec S1000000 32) (main_arg3 : IVec S1000000 32) (main_arg4 : FVec F S1000000 .f32) (main_arg5 : FVec F S1000000 .f32) (main_arg6 : IVec S2048 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S1000000 .f32 := Host.absf main_arg4
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg5
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_v13 main_v16
-- ==== Kernel.lean ====
abbrev S100000x64 : Shape := ⟨2, ![100000, 64]⟩
abbrev S50000x64 : Shape := ⟨2, ![50000, 64]⟩
abbrev S1000000 : Shape := ⟨1, ![1000000]⟩
abbrev S2048 : Shape := ⟨1, ![2048]⟩
abbrev S_ : Shape := ⟨0, ![]⟩
abbrev S150000x64 : Shape := ⟨2, ![150000, 64]⟩
abbrev S1000000x1 : Shape := ⟨2, ![1000000, 1]⟩
abbrev S1000000x64 : Shape := ⟨2, ![1000000, 64]⟩
abbrev S2048x1 : Shape := ⟨2, ![2048, 1]⟩
abbrev S2048x64 : Shape := ⟨2, ![2048, 64]⟩
abbrev S50176x64 : Shape := ⟨2, ![50176, 64]⟩
abbrev S2048x50176 : Shape := ⟨2, ![2048, 50176]⟩
abbrev S512x64 : Shape := ⟨2, ![512, 64]⟩
abbrev S1792x64 : Shape := ⟨2, ![1792, 64]⟩
abbrev S512x1792 : Shape := ⟨2, ![512, 1792]⟩
abbrev S2048x50000 : Shape := ⟨2, ![2048, 50000]⟩

abbrev nBuf : Space → Nat
  | .hbm => 88
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S1000000, .f32⟩
  | .hbm, ⟨6, _⟩ => ⟨S2048, .i32⟩
  | .hbm, ⟨7, _⟩ => ⟨S_, .f32⟩
  | .hbm, ⟨8, _⟩ => ⟨S1000000, .f32⟩
  | .hbm, ⟨9, _⟩ => ⟨S1000000, .i1⟩
  | .hbm, ⟨10, _⟩ => ⟨S_, .f32⟩
  | .hbm, ⟨11, _⟩ => ⟨S1000000, .f32⟩
  | .hbm, ⟨12, _⟩ => ⟨S1000000, .f32⟩
  | .hbm, ⟨13, _⟩ => ⟨S_, .f32⟩
  | .hbm, ⟨14, _⟩ => ⟨S_, .f32⟩
  | .hbm, ⟨15, _⟩ => ⟨S1000000, .f32⟩
  | .hbm, ⟨16, _⟩ => ⟨S1000000, .f32⟩
  | .hbm, ⟨17, _⟩ => ⟨S150000x64, .f32⟩
  | .hbm, ⟨18, _⟩ => ⟨S1000000x1, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x64, .f32⟩
  | .hbm, ⟨28, _⟩ => ⟨S1000000x64, .f32⟩
  | .hbm, ⟨29, _⟩ => ⟨S1000000x64, .f32⟩
  | .hbm, ⟨30, _⟩ => ⟨S_, .f32⟩
  | .hbm, ⟨31, _⟩ => ⟨S150000x64, .f32⟩
  | .hbm, ⟨32, _⟩ => ⟨S1000000x1, .i32⟩
  | .hbm, ⟨33, _⟩ => ⟨S150000x64, .f32⟩
  | .hbm, ⟨34, _⟩ => ⟨S150000x64, .f32⟩
  | .hbm, ⟨35, _⟩ => ⟨S1000000x1, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S_, .f32⟩
  | .hbm, ⟨48, _⟩ => ⟨S150000x64, .f32⟩
  | .hbm, ⟨49, _⟩ => ⟨S1000000x1, .i32⟩
  | .hbm, ⟨50, _⟩ => ⟨S150000x64, .f32⟩
  | .hbm, ⟨51, _⟩ => ⟨S150000x64, .f32⟩
  | .hbm, ⟨52, _⟩ => ⟨S1000000x1, .f32⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S_, .i32⟩
  | .hbm, ⟨57, _⟩ => ⟨S1000000, .i32⟩
  | .hbm, ⟨58, _⟩ => ⟨S1000000, .i32⟩
  | .hbm, ⟨59, _⟩ => ⟨S1000000, .i32⟩
  | .hbm, ⟨60, _⟩ => ⟨S1000000x1, .i32⟩
  | .hbm, ⟨61, _⟩ => ⟨S1000000x64, .f32⟩
  | .hbm, ⟨62, _⟩ => ⟨S1000000x64, .f32⟩
  | .hbm, ⟨63, _⟩ => ⟨S1000000x64, .f32⟩
  | .hbm, ⟨64, _⟩ => ⟨S_, .f32⟩
  | .hbm, ⟨65, _⟩ => ⟨S150000x64, .f32⟩
  | .hbm, ⟨66, _⟩ => ⟨S1000000x1, .i32⟩
  | .hbm, ⟨67, _⟩ => ⟨S150000x64, .f32⟩
  | .hbm, ⟨68, _⟩ => ⟨S150000x64, .f32⟩
  | .hbm, ⟨69, _⟩ => ⟨S_, .f32⟩
  | .hbm, ⟨70, _⟩ => ⟨S150000x64, .f32⟩
  | .hbm, ⟨71, _⟩ => ⟨S150000x64, .f32⟩
  | .hbm, ⟨72, _⟩ => ⟨S100000x64, .f32⟩
  | .hbm, ⟨73, _⟩ => ⟨S50000x64, .f32⟩
  | .hbm, ⟨74, _⟩ => ⟨S_, .i32⟩
  | .hbm, ⟨75, _⟩ => ⟨S2048, .i32⟩
  | .hbm, ⟨76, _⟩ => ⟨S2048, .i1⟩
  | .hbm, ⟨77, _⟩ => ⟨S_, .i32⟩
  | .hbm, ⟨78, _⟩ => ⟨S2048, .i32⟩
  | .hbm, ⟨79, _⟩ => ⟨S2048, .i32⟩
  | .hbm, ⟨80, _⟩ => ⟨S2048, .i32⟩
  | .hbm, ⟨81, _⟩ => ⟨S2048x1, .i32⟩
  | .hbm, ⟨82, _⟩ => ⟨S2048x64, .f32⟩
  | .hbm, ⟨83, _⟩ => ⟨S_, .i32⟩
  | .hbm, ⟨84, _⟩ => ⟨S_, .f32⟩
  | .hbm, ⟨85, _⟩ => ⟨S50176x64, .f32⟩
  | .hbm, ⟨86, _⟩ => ⟨S2048x50176, .f32⟩
  | .hbm, ⟨87, _⟩ => ⟨S2048x50000, .f32⟩
  | .local _ .vmem, ⟨0, _⟩ => ⟨S512x64, .f32⟩
  | .local _ .vmem, ⟨1, _⟩ => ⟨S512x64, .f32⟩
  | .local _ .vmem, ⟨2, _⟩ => ⟨S1792x64, .f32⟩
  | .local _ .vmem, ⟨3, _⟩ => ⟨S1792x64, .f32⟩
  | .local _ .vmem, ⟨4, _⟩ => ⟨S512x1792, .f32⟩
  | .local _ .vmem, ⟨5, _⟩ => ⟨S512x1792, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1792x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S1000000 : S_.BroadcastsInDim S1000000 (![] : Fin 0 → Fin S1000000.rank)
  concatenates_S100000x64_S50000x64_S150000x64_d0 : Shape.Concatenates [S100000x64, S50000x64] S150000x64 0
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S2048 : S_.BroadcastsInDim S2048 (![] : Fin 0 → Fin S2048.rank)
  bcast_S2048_S2048x1_0 : S2048.BroadcastsInDim S2048x1 (![0] : Fin 1 → Fin S2048x1.rank)
  pads_S50000x64_S50176x64_01760_000 : S50000x64.Pads (![0, 0] : Fin 2 → Nat) ![176, 0] ![0, 0] S50176x64
  h_S_ : 0 < S_.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  bitsLt_bf16_f32 : FTy.bits .bf16 < FTy.bits .f32
  inb_S1792x64_S1792x64_0_0 : ∀ a, (![0, 0] : Fin 2 → Nat) a + S1792x64.size a ≤ S1792x64.size a
  h_S1792x64 : 0 < S1792x64.numel
  shapeCasts_S1792x64_S1792x64 : S1792x64.ShapeCasts S1792x64
  inb_S512x1792_S512x1792_0_0 : ∀ a, (![0, 0] : Fin 2 → Nat) a + S512x1792.size a ≤ S512x1792.size a
  h_S512x1792 : 0 < S512x1792.numel
  slices_S2048x50176_S2048x50000_0_0 : S2048x50176.Slices ![0, 0] S2048x50000
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  gather_S100000x64_S2048x1_S2048x64_1_0_n_n_0_1_164_wf : GatherDims.WF S100000x64 S2048x1 S2048x64 [1] [0] [] [0] [] 1 ![1, 64]
  dot_S512x64_S1792x64_S512x1792_1_1_0_0_n_n_wf : DotDims.WF S512x64 S1792x64 S512x1792 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S2048x64.size a
  hwx0_0 : ∀ i : grid0.Coords, EltTy.bits .f32 = 32 ∨ (Rect.block (s := S2048x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x64.size a ≤ S50176x64.size a
  hwx0_1 : ∀ i : grid0.Coords, EltTy.bits .f32 = 32 ∨ (Rect.block (s := S50176x64) S1792x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1792.size a ≤ S2048x50176.size a
  hwx0_2 : ∀ i : grid0.Coords, EltTy.bits .f32 = 32 ∨ (Rect.block (s := S2048x50176) S512x1792.size (cc0_transform_2 i) (hinb0_2 i)).WholeWords (EltTy.packing .f32)

variable [Facts₀]

def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def dot_S512x64_S1792x64_S512x1792_1_1_0_0_n_n : DotDims S512x64 S1792x64 S512x1792 where
  lhsContracting := [1]
  rhsContracting := [1]
  lhsNonContracting := [0]
  rhsNonContracting := [0]
  lhsBatch := []
  rhsBatch := []
  wf := dot_S512x64_S1792x64_S512x1792_1_1_0_0_n_n_wf

abbrev win0_0 : Pipeline.Window sig grid0 :=
  Pipeline.Window.ofSpec (Memref.whole main_v58) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S1792x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S512x1792.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S1000000 : Shape := ⟨1, ![1000000]⟩
abbrev S2048 : Shape := ⟨1, ![2048]⟩
abbrev S_ : Shape := ⟨0, ![]⟩
abbrev S150000x64 : Shape := ⟨2, ![150000, 64]⟩
abbrev S1000000x1 : Shape := ⟨2, ![1000000, 1]⟩
abbrev S1000000x64 : Shape := ⟨2, ![1000000, 64]⟩
abbrev S2048x1 : Shape := ⟨2, ![2048, 1]⟩
abbrev S2048x64 : Shape := ⟨2, ![2048, 64]⟩
abbrev S64x50000 : Shape := ⟨2, ![64, 50000]⟩
abbrev S2048x50000 : Shape := ⟨2, ![2048, 50000]⟩

abbrev nBuf : Space → Nat
  | .hbm => 93
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S1000000, .f32⟩
  | .hbm, ⟨6, _⟩ => ⟨S2048, .i32⟩
  | .hbm, ⟨7, _⟩ => ⟨S_, .f32⟩
  | .hbm, ⟨8, _⟩ => ⟨S1000000, .f32⟩
  | .hbm, ⟨9, _⟩ => ⟨S1000000, .i1⟩
  | .hbm, ⟨10, _⟩ => ⟨S_, .f32⟩
  | .hbm, ⟨11, _⟩ => ⟨S1000000, .f32⟩
  | .hbm, ⟨12, _⟩ => ⟨S1000000, .f32⟩
  | .hbm, ⟨13, _⟩ => ⟨S_, .f32⟩
  | .hbm, ⟨14, _⟩ => ⟨S_, .f32⟩
  | .hbm, ⟨15, _⟩ => ⟨S1000000, .f32⟩
  | .hbm, ⟨16, _⟩ => ⟨S1000000, .f32⟩
  | .hbm, ⟨17, _⟩ => ⟨S150000x64, .f32⟩
  | .hbm, ⟨18, _⟩ => ⟨S1000000x1, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x64, .f32⟩
  | .hbm, ⟨28, _⟩ => ⟨S1000000x64, .f32⟩
  | .hbm, ⟨29, _⟩ => ⟨S1000000x64, .f32⟩
  | .hbm, ⟨30, _⟩ => ⟨S_, .f32⟩
  | .hbm, ⟨31, _⟩ => ⟨S150000x64, .f32⟩
  | .hbm, ⟨32, _⟩ => ⟨S1000000x1, .i32⟩
  | .hbm, ⟨33, _⟩ => ⟨S150000x64, .f32⟩
  | .hbm, ⟨34, _⟩ => ⟨S150000x64, .f32⟩
  | .hbm, ⟨35, _⟩ => ⟨S1000000x1, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S_, .f32⟩
  | .hbm, ⟨48, _⟩ => ⟨S150000x64, .f32⟩
  | .hbm, ⟨49, _⟩ => ⟨S1000000x1, .i32⟩
  | .hbm, ⟨50, _⟩ => ⟨S150000x64, .f32⟩
  | .hbm, ⟨51, _⟩ => ⟨S150000x64, .f32⟩
  | .hbm, ⟨52, _⟩ => ⟨S1000000x1, .f32⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S_, .i32⟩
  | .hbm, ⟨57, _⟩ => ⟨S1000000, .i32⟩
  | .hbm, ⟨58, _⟩ => ⟨S1000000, .i32⟩
  | .hbm, ⟨59, _⟩ => ⟨S1000000, .i32⟩
  | .hbm, ⟨60, _⟩ => ⟨S1000000x1, .i32⟩
  | .hbm, ⟨61, _⟩ => ⟨S1000000x64, .f32⟩
  | .hbm, ⟨62, _⟩ => ⟨S1000000x64, .f32⟩
  | .hbm, ⟨63, _⟩ => ⟨S1000000x64, .f32⟩
  | .hbm, ⟨64, _⟩ => ⟨S_, .f32⟩
  | .hbm, ⟨65, _⟩ => ⟨S150000x64, .f32⟩
  | .hbm, ⟨66, _⟩ => ⟨S1000000x1, .i32⟩
  | .hbm, ⟨67, _⟩ => ⟨S150000x64, .f32⟩
  | .hbm, ⟨68, _⟩ => ⟨S150000x64, .f32⟩
  | .hbm, ⟨69, _⟩ => ⟨S_, .f32⟩
  | .hbm, ⟨70, _⟩ => ⟨S150000x64, .f32⟩
  | .hbm, ⟨71, _⟩ => ⟨S150000x64, .f32⟩
  | .hbm, ⟨72, _⟩ => ⟨S100000x64, .f32⟩
  | .hbm, ⟨73, _⟩ => ⟨S50000x64, .f32⟩
  | .hbm, ⟨74, _⟩ => ⟨S_, .i32⟩
  | .hbm, ⟨75, _⟩ => ⟨S2048, .i32⟩
  | .hbm, ⟨76, _⟩ => ⟨S2048, .i1⟩
  | .hbm, ⟨77, _⟩ => ⟨S_, .i32⟩
  | .hbm, ⟨78, _⟩ => ⟨S2048, .i32⟩
  | .hbm, ⟨79, _⟩ => ⟨S2048, .i32⟩
  | .hbm, ⟨80, _⟩ => ⟨S2048, .i32⟩
  | .hbm, ⟨81, _⟩ => ⟨S2048x1, .i32⟩
  | .hbm, ⟨82, _⟩ => ⟨S2048x64, .f32⟩
  | .hbm, ⟨83, _⟩ => ⟨S64x50000, .f32⟩
  | .hbm, ⟨84, _⟩ => ⟨S2048x50000, .f32⟩
  | .hbm, ⟨85, _⟩ => ⟨S2048x50000, .f32⟩
  | .hbm, ⟨86, _⟩ => ⟨S2048x50000, .f32⟩
  | .hbm, ⟨87, _⟩ => ⟨S_, .f32⟩
  | .hbm, ⟨88, _⟩ => ⟨S2048x50000, .f32⟩
  | .hbm, ⟨89, _⟩ => ⟨S2048x50000, .f32⟩
  | .hbm, ⟨90, _⟩ => ⟨S_, .f32⟩
  | .hbm, ⟨91, _⟩ => ⟨S2048x50000, .f32⟩
  | .hbm, ⟨92, _⟩ => ⟨S2048x50000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  concatenates_S100000x64_S50000x64_S150000x64_d0 : Shape.Concatenates [S100000x64, S50000x64] S150000x64 0
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S2048 : S_.BroadcastsInDim S2048 (![] : Fin 0 → Fin S2048.rank)
  bcast_S2048_S2048x1_0 : S2048.BroadcastsInDim S2048x1 (![0] : Fin 1 → Fin S2048x1.rank)
  transposes_S50000x64_S64x50000_1_0 : S50000x64.Transposes [1, 0] S64x50000
  bcast_S_S2048x50000 : S_.BroadcastsInDim S2048x50000 (![] : Fin 0 → Fin S2048x50000.rank)
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  gather_S100000x64_S2048x1_S2048x64_1_0_n_n_0_1_164_wf : GatherDims.WF S100000x64 S2048x1 S2048x64 [1] [0] [] [0] [] 1 ![1, 64]
  dot_S2048x64_S64x50000_S2048x50000_1_0_0_1_n_n_wf : DotDims.WF S2048x64 S64x50000 S2048x50000 [1] [0] [0] [1] [] []

variable [Facts₀]

def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def dot_S2048x64_S64x50000_S2048x50000_1_0_0_1_n_n : DotDims S2048x64 S64x50000 S2048x50000 where
  lhsContracting := [1]
  rhsContracting := [0]
  lhsNonContracting := [0]
  rhsNonContracting := [1]
  lhsBatch := []
  rhsBatch := []
  wf := dot_S2048x64_S64x50000_S2048x50000_1_0_0_1_n_n_wf

class Facts : Prop extends Facts₀ where

variable [Facts]
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibRating.lean ====
/-
  The rating of a user row against an item row, and the two ways the programs spell it.

  For a matrix `U` of user rows and a matrix `I` of item rows (each row a vector of `K` coordinates) the rating of user `p`
  for item `q` is the logistic function of the inner product of the two rows,

      score U I p q = σ (∑ k, U[p, k] · I[q, k]),        σ z = 1 / (1 + e^(−z)),

  over the extended reals, where σ is total (σ(−∞) = 0, σ(+∞) = 1). Nothing here needs the entries to be finite: the inner
  product is one sum on both sides, and σ is one function.

  * A tile of ratings computed as "round both tiles to bf16, multiply contracting the last axis of both, accumulate into
    zeros, apply the logistic unit" is `score` of the two tiles, entry by entry (`tile_score`): rounding is the identity
    on extended reals, the product of rows is the sum above, and the unit is σ.
  * σ written out as a quotient, `1 / (1 + exp (−z))` with the two ones given by their f32 words, is σ (`quotient_eq_logistic`).
  * `score` only reads row `p` of `U` and row `q` of `I` (`score_congr`).
-/
import Idealize.ShloMosaic.PureOps.Ideal.Laws
import Idealize.ShloMosaic.Lib.ValueIdx
import Idealize.ShloMosaic.Lib.IdealHost
import Idealize.ShloMosaic.Lib.Pipeline.Value
import proofs.«107522_j798863917522_1_alg».proof.Proof.LibDotRows

noncomputable section

open scoped BigOperators

namespace Cert.Rating

open Idealize.ShloMosaic Idealize.ShloMosaic.ValueIdx

variable {M N K : Nat}

/-- The rating of user row `p` of `U` for item row `q` of `I`: the logistic function of the rows' inner product. -/
def score (U : (⟨2, ![M, K]⟩ : Shape).Idx → EReal) (I : (⟨2, ![N, K]⟩ : Shape).Idx → EReal) (p : Fin M) (q : Fin N) : EReal :=
  Ideal.logistic (∑ k : Fin K, U (ix2 p k) * I (ix2 q k))

/-- The rating of `(p, q)` reads row `p` of the users and row `q` of the items, and nothing else: two pairs of matrices,
    possibly of different heights, that agree on those rows give the same rating. -/
theorem score_congr {M' N' : Nat} (U : (⟨2, ![M, K]⟩ : Shape).Idx → EReal) (I : (⟨2, ![N, K]⟩ : Shape).Idx → EReal)
    (U' : (⟨2, ![M', K]⟩ : Shape).Idx → EReal) (I' : (⟨2, ![N', K]⟩ : Shape).Idx → EReal)
    (p : Fin M) (q : Fin N) (p' : Fin M') (q' : Fin N')
    (hU : ∀ k : Fin K, U (ix2 p k) = U' (ix2 p' k)) (hI : ∀ k : Fin K, I (ix2 q k) = I' (ix2 q' k)) :
    score U I p q = score U' I' p' q' := by
  unfold score
  exact congrArg Ideal.logistic (Finset.sum_congr rfl fun k _ => by rw [hU k, hI k])

/-- A TILE OF RATINGS as a kernel body computes it — both tiles rounded to bf16, multiplied with the last axis of both
    contracted (any record `D` that spells those dimension numbers) into the zero accumulator, then the logistic unit — is
    `score` of the tiles at every entry. -/
theorem tile_score (D : DotDims ⟨2, ![M, K]⟩ ⟨2, ![N, K]⟩ ⟨2, ![M, N]⟩) (hD : D = DotDims.transposedRhs M K N)
    (x : FVec Ideal ⟨2, ![M, K]⟩ .f32) (y : FVec Ideal ⟨2, ![N, K]⟩ .f32)
    (hx : (⟨2, ![M, K]⟩ : Shape).ShapeCasts ⟨2, ![M, K]⟩) (hy : (⟨2, ![N, K]⟩ : Shape).ShapeCasts ⟨2, ![N, K]⟩)
    (hb : FTy.bf16.bits < FTy.f32.bits) (p : Fin M) (q : Fin N) :
    logistic (matmul D none (truncf .bf16 (shapeCast ⟨2, ![M, K]⟩ x hx) hb) (truncf .bf16 (shapeCast ⟨2, ![N, K]⟩ y hy) hb)
        (constant ⟨2, ![M, N]⟩ .f32 0x00000000#32)) (ix2 p q)
      = score x y p q := by
  rw [shapeCast_self x hx, shapeCast_self y hy]
  show Ideal.logistic (FloatOps.matmul (F := Ideal) D none (truncf .bf16 x hb) (truncf .bf16 y hb)
    (constant ⟨2, ![M, N]⟩ .f32 0x00000000#32) (ix2 p q)) = _
  rw [Cert.Lib.DotRows.matmul_rows_apply D hD]
  rfl

/-- The logistic function written as the quotient `1 / (1 + exp (−z))`, each one the f32 word of 1.0, is the logistic
    function. -/
theorem quotient_eq_logistic (z : EReal) :
    FloatOps.hostDivf (F := Ideal) (φ := .f32) (Ideal.ofBits .f32 0x3F800000#32)
        (FloatOps.addf (F := Ideal) (φ := .f32) (Ideal.ofBits .f32 0x3F800000#32)
          (FloatOps.hostUnary (F := Ideal) (φ := .f32) .exp (FloatOps.hostNegf (F := Ideal) (φ := .f32) z)))
      = Ideal.logistic z := by
  rw [Ideal.ofBits_one_f32]
  rfl

end Cert.Rating

end
-- ==== Proof.Tile.lean ====
/-
  One grid point's tile of ratings.

  The body loads a 512-row tile of user rows and a 1792-row tile of item rows and stores one value: both tiles rounded to
  bf16, multiplied with the 64 coordinates contracted, then the logistic unit. Entry `(p, q)` of what it stores is the rating
  of the tile's user row `p` for the tile's item row `q`.
-/
import proofs.«107522_j798863917522_1_alg».proof.Proof.Gen.KernelIdeal.Skeleton
import proofs.«107522_j798863917522_1_alg».proof.Proof.LibRating

noncomputable section

namespace Cert.KernelIdeal.Rated

open Cert.KernelIdeal Cert.KernelIdeal.Gen
open Idealize.ShloMosaic Idealize.ShloMosaic.ValueIdx

/-- The printed dimension numbers are "contract the last axis of both operands". -/
theorem dims_rows : dot_S512x64_S1792x64_S512x1792_1_1_0_0_n_n = DotDims.transposedRhs 512 64 1792 := rfl

/-- THE TILE: the stored value at `(p, q)` is the rating of row `p` of the user tile for row `q` of the item tile. -/
theorem payload_entry (x0 : Vec Ideal S512x64 .f32) (x1 : Vec Ideal S1792x64 .f32) (p : Fin 512) (q : Fin 1792) :
    k0_pay1 (F := Ideal) x0 x1 (ix2 p q) = Cert.Rating.score x0 x1 p q := by
  unfold k0_pay1
  exact Cert.Rating.tile_score dot_S512x64_S1792x64_S512x1792_1_1_0_0_n_n dims_rows x0 x1 _ _ _ p q

end Cert.KernelIdeal.Rated

end
-- ==== Proof.Tiles.lean ====
/-
  From the grid's tiles to the whole array of ratings.

  The grid is 4 × 28. Point `t = (t / 28, t % 28)` is handed rows `512 · (t / 28) …` of the users, rows `1792 · (t % 28) …` of the
  padded items, and writes back the 512 × 1792 tile of the output at that pair of offsets. By the tile lemma its entry
  `(p, q)` is the rating of user row `512 · (t / 28) + p` for padded-item row `1792 · (t % 28) + q`: the tile is a block of ONE
  array, `ratings users paddedItems`, whose entry `(b, j)` is the rating of user row `b` for padded-item row `j`. The 112
  tiles cover the 2048 × 50176 output (entry `(b, j)` lies in the tile of the point `(b / 512, j / 1792)`), so after the
  region the output array is that array.
-/
import proofs.«107522_j798863917522_1_alg».proof.Proof.Gen.KernelIdeal.Frame
import proofs.«107522_j798863917522_1_alg».proof.Proof.Tile
import Idealize.ShloMosaic.Lib.Pipeline.Value

noncomputable section

namespace Cert.KernelIdeal.Rated

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Every user row rated against every row of the padded items. -/
def ratings (U : S2048x64.Idx → EReal) (I : S50176x64.Idx → EReal) : S2048x50176.Idx → EReal :=
  fun i => Cert.Rating.score U I (i 0) (i 1)

theorem origin : (![0, 0] : Fin 2 → Nat) = fun _ => 0 := funext fun a => by fin_cases a <;> rfl

/-- The printed index maps over the 112 grid points: point `t` is `(t / 28, t % 28)`; the output's tile sits at that pair of
    block offsets, the users' tile at the first, the items' tile at the second. -/
theorem tile_offsets : ∀ t : Fin cfg0.N, win0_2.index t (0 : Fin 2) = t.val / 28 ∧ win0_2.index t (1 : Fin 2) = t.val % 28
    ∧ win0_0.index t (0 : Fin 2) = t.val / 28 ∧ win0_0.index t (1 : Fin 2) = 0
    ∧ win0_1.index t (0 : Fin 2) = t.val % 28 ∧ win0_1.index t (1 : Fin 2) = 0 :=
  (by decide +kernel : ∀ t : Fin grid0.N, _)

set_option maxHeartbeats 1600000 in
/-- WHAT POINT `t` WRITES BACK is tile `t` of the one array of ratings, of the operands as the region finds them. -/
theorem written_back (c : Dev nD) (t : Fin cfg0.N) :
    (dats m 0 c).flushed 2 t = ((cfg0.win 2).blk t).view.read (Elt Ideal) (ratings (V m c main_v58) (V m c main_v59)) := by
  show (cfg0.win 2).cut (grid0.coords t) ((dats m 0 c).after 2 t) = _
  rw [after0_2]
  unfold out0_2
  rw [View.canon_unit_zero origin]
  simp only [View.ld_unit_zero (S := S512x64) origin, View.ld_unit_zero (S := S1792x64) origin]
  obtain ⟨e20, e21, e00, e01, e10, e11⟩ := tile_offsets t
  funext j
  obtain ⟨p, q, rfl⟩ : ∃ (p : Fin 512) (q : Fin 1792), j = ix2 p q := ⟨j 0, j 1, eq_ix2 j⟩
  -- the right side is the array of ratings read at the entry's place in the output, (512 · (t / 28) + p, 1792 · (t % 28) + q)
  rw [View.read_apply]
  generalize hz : ratings (V m c main_v58) (V m c main_v59) _ = z
  show _ = z
  rw [← hz]
  refine (payload_entry (iblk m c 0 t) (iblk m c 1 t) p q).trans ?_
  unfold ratings
  refine Cert.Rating.score_congr (iblk m c 0 t) (iblk m c 1 t) (V m c main_v58) (V m c main_v59) p q _ _ (fun k => ?_) (fun k => ?_)
  · -- row p of the user tile is user row 512 · (t / 28) + p, the output row of the entry
    have h : ((cfg0.win 0).blk t).view.emb (ix2 p k) = ix2 ((((cfg0.win 2).blk t).view.emb (ix2 p q)) 0) k := by
      funext a; apply Fin.ext
      match a with
      | ⟨0, _⟩ => show win0_0.index t (0 : Fin 2) * 512 + 1 * p.val = win0_2.index t (0 : Fin 2) * 512 + 1 * p.val; omega
      | ⟨1, _⟩ => show win0_0.index t (1 : Fin 2) * 64 + 1 * k.val = k.val; omega
    unfold iblk
    rw [View.read_apply]
    generalize hy : V m c (Pipeline.arrRef spec0 0) _ = y
    show y = _
    rw [← hy]
    exact congrArg (V m c main_v58 : S2048x64.Idx → EReal) h
  · -- row q of the item tile is padded-item row 1792 · (t % 28) + q, the output column of the entry
    have h : ((cfg0.win 1).blk t).view.emb (ix2 q k) = ix2 ((((cfg0.win 2).blk t).view.emb (ix2 p q)) 1) k := by
      funext a; apply Fin.ext
      match a with
      | ⟨0, _⟩ => show win0_1.index t (0 : Fin 2) * 1792 + 1 * q.val = win0_2.index t (1 : Fin 2) * 1792 + 1 * q.val; omega
      | ⟨1, _⟩ => show win0_1.index t (1 : Fin 2) * 64 + 1 * k.val = k.val; omega
    unfold iblk
    rw [View.read_apply]
    generalize hy : V m c (Pipeline.arrRef spec0 1) _ = y
    show y = _
    rw [← hy]
    exact congrArg (V m c main_v59 : S50176x64.Idx → EReal) h

/-- An entry of the output array is in point `t`'s tile iff each coordinate is in the tile's range on its axis. -/
theorem mem_tile (t : Fin cfg0.N) (i : S2048x50176.Idx) :
    i ∈ ((cfg0.win 2).blk t).view.set ↔ ∀ a : Fin 2, win0_2.index t a * S512x1792.size a ≤ (i a).val ∧ (i a).val < win0_2.index t a * S512x1792.size a + S512x1792.size a := by
  show i ∈ ((View.whole main_v60).slice (win0_2.rect t)).set ↔ _
  rw [View.set_slice_whole, Rect.mem_set_unit]
  exact Iff.rfl

/-- THE TILES COVER THE OUTPUT: entry `(b, j)` lies in the tile of the point `(b / 512, j / 1792)`. -/
theorem covered (i : S2048x50176.Idx) : ∃ t : Fin cfg0.N, (cfg0.win 2).flush t = true ∧ i ∈ ((cfg0.win 2).blk t).view.set := by
  have hi0 : (i 0).val < 2048 := (i 0).isLt
  have hi1 : (i 1).val < 50176 := (i 1).isLt
  have hN : cfg0.N = 112 := N_0
  have ht : (i 0).val / 512 * 28 + (i 1).val / 1792 < cfg0.N := by omega
  obtain ⟨e20, e21, -⟩ := tile_offsets ⟨(i 0).val / 512 * 28 + (i 1).val / 1792, ht⟩
  have f0 : win0_2.index ⟨(i 0).val / 512 * 28 + (i 1).val / 1792, ht⟩ (0 : Fin 2) = ((i 0).val / 512 * 28 + (i 1).val / 1792) / 28 := e20
  have f1 : win0_2.index ⟨(i 0).val / 512 * 28 + (i 1).val / 1792, ht⟩ (1 : Fin 2) = ((i 0).val / 512 * 28 + (i 1).val / 1792) % 28 := e21
  refine ⟨⟨(i 0).val / 512 * 28 + (i 1).val / 1792, ht⟩, flush0_2 _, ?_⟩
  rw [mem_tile]
  intro a
  match a with
  | ⟨0, _⟩ =>
    show win0_2.index ⟨(i 0).val / 512 * 28 + (i 1).val / 1792, ht⟩ (0 : Fin 2) * 512 ≤ (i 0).val
      ∧ (i 0).val < win0_2.index ⟨(i 0).val / 512 * 28 + (i 1).val / 1792, ht⟩ (0 : Fin 2) * 512 + 512
    omega
  | ⟨1, _⟩ =>
    show win0_2.index ⟨(i 0).val / 512 * 28 + (i 1).val / 1792, ht⟩ (1 : Fin 2) * 1792 ≤ (i 1).val
      ∧ (i 1).val < win0_2.index ⟨(i 0).val / 512 * 28 + (i 1).val / 1792, ht⟩ (1 : Fin 2) * 1792 + 1792
    omega

/-- THE OUTPUT ARRAY after the region: every user row rated against every padded-item row, of the operands as the region
    finds them. -/
theorem output_array (c : Dev nD) : (dats m 0 c).arrAt 2 cfg0.N = ratings (V m c main_v58) (V m c main_v59) :=
  (dats m 0 c).arrAt_eq_of_cover 2 (ratings (V m c main_v58) (V m c main_v59)) (fun t _ => written_back m c t) covered

end Cert.KernelIdeal.Rated

end
-- ==== Proof.HostLines.lean ====
/-
  The kernel program's host lines around its one region.

  BEFORE the region the program runs the reference's own lines — the dropout rescaling of the edge values, three rounds of
  "gather the source rows, scale, sum into the destination rows", the mean over the four layers, the split into users and
  items, the gather of the batch's user rows — and then pads the items from 50000 to 50176 rows. So the region finds, as its
  first operand, the reference's gathered user rows (`Read.val_main_v58` of the arguments) and, as its second, the reference's
  item rows (`Read.val_main_v51`) with 176 padding rows below: at a row below 50000 the padded array IS the items.

  AFTER the region one line keeps the first 50000 of the 50176 columns of the region's output array.
-/
import proofs.«107522_j798863917522_1_alg».proof.Proof.Gen.KernelIdeal.Frame
import proofs.«107522_j798863917522_1_alg».proof.Proof.Gen.ReferenceIdeal.Read
import Idealize.ShloMosaic.Lib.StableHlo.Run
import Idealize.ShloMosaic.Lib.KernelVsHost
import Idealize.ShloMosaic.Lib.ValueIdx

noncomputable section

namespace Cert.KernelIdeal.Rated

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The batch's user rows after propagation, as the reference's stages compute them from core `c`'s argument arrays. -/
abbrev users (c : Dev nD) : S2048x64.Idx → EReal :=
  Cert.ReferenceIdeal.Read.val_main_v58 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The item rows after propagation, likewise. -/
abbrev items (c : Dev nD) : S50000x64.Idx → EReal :=
  Cert.ReferenceIdeal.Read.val_main_v51 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

set_option maxHeartbeats 4000000 in
/-- The region's first operand is the reference's gathered user rows: the host lines before the region are the
    reference's, operation for operation. -/
theorem users_entering (c : Dev nD) : (V m c main_v58 : S2048x64.Idx → EReal) = users m c := by
  dsimp only [V, V0]
  simp only [hostOps0, hostOps0_1, hostOps0_2, hostOps0_3, List.flatten_cons, List.flatten_nil, List.append_nil, List.cons_append,
    List.nil_append]
  after_results_simp
  all_goals rfl

set_option maxHeartbeats 4000000 in
/-- The region's second operand is the reference's item rows, padded below. -/
theorem items_entering (c : Dev nD) : (V m c main_v59 : S50176x64.Idx → EReal) =
    pad S50176x64 ![0, 0] ![176, 0] ![0, 0] (items m c) (sitofp (F := Ideal) .f32 (constantI S_ 32 0#32))
      pads_S50000x64_S50176x64_01760_000 h_S_ := by
  dsimp only [V, V0]
  simp only [hostOps0, hostOps0_1, hostOps0_2, hostOps0_3, List.flatten_cons, List.flatten_nil, List.append_nil, List.cons_append,
    List.nil_append]
  after_results_simp
  all_goals rfl

/-- At a row below 50000 the padded operand is the item row itself. -/
theorem items_entering_row (c : Dev nD) (j : Fin 50000) (j' : Fin 50176) (hj : j'.val = j.val) (k : Fin 64) :
    (V m c main_v59 : S50176x64.Idx → EReal) (ix2 j' k) = items m c (ix2 j k) := by
  rw [items_entering]
  exact pad_apply_of_inside ![0, 0] ![176, 0] ![0, 0] (items m c) _ pads_S50000x64_S50176x64_01760_000 h_S_ (ix2 j' k) (ix2 j k)
    (fun a => by
      match a with
      | ⟨0, _⟩ => show j'.val = 0 + j.val * (0 + 1); omega
      | ⟨1, _⟩ => show k.val = 0 + k.val * (0 + 1); omega)

/-- The program's result is the first 50000 columns of the region's output array. -/
theorem result_slice (c : Dev nD) :
    (Pipeline.afterTail₀ cfgs (dats m) 0 (V0 m) [hostOps1] c main_v61 : S2048x50000.Idx → EReal) =
      extractStridedSlice S2048x50000 ![0, 0] ((dats m 0 c).arrAt 2 cfg0.N) slices_S2048x50176_S2048x50000_0_0 := by
  unfold Pipeline.afterTail₀
  show StableHlo.after hostOps1 _ (Proc.devRef .tc main_v61) = _
  after_results
  exact congrArg (fun a => extractStridedSlice S2048x50000 ![0, 0] a slices_S2048x50176_S2048x50000_0_0)
    (Pipeline.withArrays_arr spec0 launch0.win.arr_inj c (V0 m c) (fun w => (dats m 0 c).arrAt w cfg0.N) 2)

end Cert.KernelIdeal.Rated

end
-- ==== Proof.RefRated.lean ====
/-
  The reference's result, entry by entry, is the rating.

  The reference gathers the batch's user rows (`Read.val_main_v58`), takes the item rows (`Read.val_main_v51`), transposes
  the items, multiplies, and applies the logistic function spelt as a quotient, `1 / (1 + exp (−z))`. At entry `(b, j)` the
  product is `∑ k, users[b, k] · itemsᵀ[k, j]`, the transpose read back is `items[j, k]`, and the quotient is the logistic
  function: the entry is `score users items b j`.
-/
import proofs.«107522_j798863917522_1_alg».proof.Proof.Gen.ReferenceIdeal.Read
import proofs.«107522_j798863917522_1_alg».proof.Proof.LibRating

noncomputable section

open scoped BigOperators

namespace Cert.ReferenceIdeal.Rated

open Cert.ReferenceIdeal Cert.ReferenceIdeal.Gen Cert.ReferenceIdeal.Read
open Idealize.ShloMosaic Idealize.ShloMosaic.ValueIdx

/-- The reference's result at `(b, j)` is the rating of gathered user row `b` for item row `j`. -/
theorem result_entry (x0 : (⟨S100000x64, .f32⟩ : BufTy).Contents (Elt Ideal)) (x1 : (⟨S50000x64, .f32⟩ : BufTy).Contents (Elt Ideal))
    (x2 x3 : (⟨S1000000, .i32⟩ : BufTy).Contents (Elt Ideal)) (x4 x5 : (⟨S1000000, .f32⟩ : BufTy).Contents (Elt Ideal))
    (x6 : (⟨S2048, .i32⟩ : BufTy).Contents (Elt Ideal)) (b : Fin 2048) (j : Fin 50000) :
    val_main_v66 (F := Ideal) x0 x1 x2 x3 x4 x5 x6 (ix2 b j)
      = Cert.Rating.score (val_main_v58 (F := Ideal) x0 x1 x2 x3 x4 x5 x6) (val_main_v51 (F := Ideal) x0 x1 x2 x3 x4 x5) b j := by
  rw [val_main_v66_apply, val_main_v65_apply, val_main_cst_14_apply, val_main_v64_apply, val_main_v63_apply,
    val_main_cst_13_apply, val_main_v62_apply, val_main_v61_apply, val_main_v60_apply]
  refine (Cert.Rating.quotient_eq_logistic _).trans ?_
  unfold Cert.Rating.score
  refine congrArg Ideal.logistic (Finset.sum_congr rfl fun k _ => ?_)
  rw [val_main_v59_apply]
  have el : lidx_main_v60 (ix2 b j) k = ix2 b k := funext fun a => Fin.ext (by
    match a with
    | ⟨0, _⟩ => rfl
    | ⟨1, _⟩ => rfl)
  have er : idx_main_v59 (ridx_main_v60 (ix2 b j) k) = ix2 j k := funext fun a => Fin.ext (by
    match a with
    | ⟨0, _⟩ => rfl
    | ⟨1, _⟩ => rfl)
  rw [el, er]

end Cert.ReferenceIdeal.Rated

end
-- ==== Proof.KernelRated.lean ====
/-
  The kernel program's result is the reference's, entry by entry.

  After the region the output array holds the rating of every user row for every row of the PADDED items; the program keeps
  columns below 50000, where a padded-item row is the item row itself, and the users are the reference's gathered rows. So the
  result at `(b, j)` is `score users items b j` — which is the reference's result at `(b, j)`. The 176 padding rows are never
  read by an entry that is kept, so what they hold does not matter.
-/
import proofs.«107522_j798863917522_1_alg».proof.Proof.Tiles
import proofs.«107522_j798863917522_1_alg».proof.Proof.HostLines
import proofs.«107522_j798863917522_1_alg».proof.Proof.RefRated

noncomputable section

namespace Cert.KernelIdeal.Rated

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- Keeping the first 50000 columns of a 2048 × 50176 array: entry `(b, j)` of what is kept is the array's entry `(b, j)`. -/
theorem kept_column (R : S2048x50176.Idx → EReal) (b : Fin 2048) (j : Fin 50000) (j' : Fin 50176) (hj : j'.val = j.val) :
    extractStridedSlice S2048x50000 ![0, 0] R slices_S2048x50176_S2048x50000_0_0 (ix2 b j) = R (ix2 b j') :=
  extractStridedSlice_apply ![0, 0] R slices_S2048x50176_S2048x50000_0_0 (ix2 b j) (ix2 b j') (fun a => match a with
    | ⟨0, _⟩ => by show b.val = 0 + b.val; omega
    | ⟨1, _⟩ => by show j'.val = 0 + j.val; omega)

/-- The array of ratings at `(b, j')` is the rating of user row `b` for padded-item row `j'`. -/
theorem ratings_entry (A : S2048x64.Idx → EReal) (P : S50176x64.Idx → EReal) (b : Fin 2048) (j' : Fin 50176) :
    ratings A P (ix2 b j') = Cert.Rating.score A P b j' := rfl

/-- The program's result at `(b, j)` is the rating of the batch's user row `b` for item row `j`: the kept column `j` reads row
    `j` of the padded items, which is item row `j`. -/
theorem result_entry (c : Dev nD) (b : Fin 2048) (j : Fin 50000) :
    (Pipeline.afterTail₀ cfgs (dats m) 0 (V0 m) [hostOps1] c main_v61 : S2048x50000.Idx → EReal) (ix2 b j)
      = Cert.Rating.score (users m c) (items m c) b j := by
  have hj : j.val < 50176 := by have := j.isLt; omega
  have hrow : ∀ k : Fin 64, (V m c main_v59 : S50176x64.Idx → EReal) (ix2 ⟨j.val, hj⟩ k) = items m c (ix2 j k) :=
    fun k => items_entering_row m c j ⟨j.val, hj⟩ rfl k
  rw [result_slice, output_array, users_entering]
  generalize (V m c main_v59 : S50176x64.Idx → EReal) = P at hrow ⊢
  generalize users m c = A
  generalize items m c = I at hrow ⊢
  generalize hR : ratings A P = R
  refine (kept_column R b j ⟨j.val, hj⟩ rfl).trans ?_
  rw [← hR, ratings_entry]
  exact Cert.Rating.score_congr A P A I b ⟨j.val, hj⟩ b j (fun _ => rfl) hrow

/-- THE RESULT, as one array: the reference's last stage of the same argument arrays. -/
theorem result_eq (c : Dev nD) :
    (Pipeline.afterTail₀ cfgs (dats m) 0 (V0 m) [hostOps1] c main_v61 : S2048x50000.Idx → EReal)
      = Cert.ReferenceIdeal.Read.val_main_v66 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  funext i
  obtain ⟨b, j, rfl⟩ : ∃ (b : Fin 2048) (j : Fin 50000), i = ix2 b j := ⟨i 0, i 1, eq_ix2 i⟩
  rw [result_entry, Cert.ReferenceIdeal.Rated.result_entry]

end Cert.KernelIdeal.Rated

end
-- ==== Proof.KernelRun.lean ====
/-
  The kernel program's run, with its result named.

  The generated frame run ends with every buffer outside the region's windows at what the host lines after the region leave
  there; the result buffer is one of them, and those lines leave in it the array of ratings (`result_eq`): the reference's
  last stage of the argument arrays. The argument arrays end as launched.
-/
import proofs.«107522_j798863917522_1_alg».proof.Proof.KernelRated

noncomputable section

namespace Cert.KernelIdeal.Rated

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Every weakly fair execution of the idealized kernel program terminates with the result buffer at the reference's last
    stage of the argument arrays — at `(b, j)` the rating of the batch's user row `b` for item row `j` — and the arguments
    unchanged. -/
theorem run : θ_run defs (onTc (τ := τ) (main (F := Ideal))) ⟨m, fun _ => 0, ρ⟩ (fun r => ∀ c : Dev nD,
      r.2.mem ((c.tc : Thread nD τ).loc main_v61)
        = Cert.ReferenceIdeal.Read.val_main_v66 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v61 (Pipeline.mem_restRefs_of main_v61 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Rated

end
-- ==== Proof.lean ====
/-
  A LightGCN rating head: the idealized kernel program and the idealized reference compute the same ratings.

  Both programs first run the same host lines: edge values rescaled by the dropout mask, three rounds of neighbourhood sums
  over the million edges (gather the source rows, scale, sum into the destination rows), the mean over the four layers, the
  split into 100000 user rows and 50000 item rows, and the gather of the batch's 2048 user rows. Call the results `users`
  (2048 × 64) and `items` (50000 × 64); they are the same function of the arguments in both programs, and nothing below
  looks inside them.

  The reference returns σ(users · itemsᵀ), σ z = 1 / (1 + e^(−z)) written as that quotient: entry `(b, j)` is
  σ(∑ₖ users[b, k] · items[j, k]).

  The kernel program pads the items with 176 rows to 50176 = 28 · 1792, runs a 4 × 28 grid whose point `(g, h)` rounds user
  rows `512g …` and padded-item rows `1792h …` to bf16, multiplies them contracting the 64 coordinates, applies the logistic
  unit and writes the 512 × 1792 tile of a 2048 × 50176 output; then it keeps the first 50000 columns. Over the extended
  reals rounding is the identity, the product of two rows is the same sum, the logistic unit is σ, the tiles are blocks of the
  one array "user row b rated against padded-item row j" and cover it, and a kept column `j < 50000` reads item row `j`, never
  a padding row. So entry `(b, j)` of the result is again σ(∑ₖ users[b, k] · items[j, k]). No step uses that the inputs are
  finite: the two sides are the same sum and the same function of it.

  The three frames are the generated ones (the reference's is its generated run with the result dropped); the idealized
  kernel is the kernel's own text read over the extended reals, no operation replaced, so the fourth claim is `True`.
-/
import proofs.«107522_j798863917522_1_alg».proof.Defs
import proofs.«107522_j798863917522_1_alg».proof.Proof.Gen.Kernel
import proofs.«107522_j798863917522_1_alg».proof.Proof.Gen.Kernel.Skeleton
import proofs.«107522_j798863917522_1_alg».proof.Proof.Gen.Kernel.Launch
import proofs.«107522_j798863917522_1_alg».proof.Proof.Gen.Kernel.Points
import proofs.«107522_j798863917522_1_alg».proof.Proof.Gen.Kernel.Frame
import proofs.«107522_j798863917522_1_alg».proof.Proof.Gen.KernelIdeal
import proofs.«107522_j798863917522_1_alg».proof.Proof.Gen.KernelIdeal.Skeleton
import proofs.«107522_j798863917522_1_alg».proof.Proof.Gen.KernelIdeal.Launch
import proofs.«107522_j798863917522_1_alg».proof.Proof.Gen.KernelIdeal.Points
import proofs.«107522_j798863917522_1_alg».proof.Proof.Gen.KernelIdeal.Frame
import proofs.«107522_j798863917522_1_alg».proof.Proof.Gen.ReferenceIdeal
import proofs.«107522_j798863917522_1_alg».proof.Proof.Gen.ReferenceIdeal.Run
import proofs.«107522_j798863917522_1_alg».proof.Proof.Gen.ReferenceIdeal.Read
import proofs.«107522_j798863917522_1_alg».proof.Proof.Gen.Pre_finite_inputs
import proofs.«107522_j798863917522_1_alg».proof.Proof.KernelRun
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the reference's last stage — the array of ratings — of argument arrays that agree. -/
theorem algebraic : Cert.algebraic_KernelIdeal_ReferenceIdeal := by
  intro m ρ m' ρ' _ hagree
  refine ⟨_, Cert.KernelIdeal.Rated.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
